-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v12 : BitVec 32 := Scalar.muli arg0 c400_i32
  let v13 : Index := Scalar.indexCast v12
  let c0_7 : Index := 0#32
  ![v13.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S10000x128.size a
  hwx0_4 : ∀ i : grid0.Coords, EltTy.bits .f32 = 32 ∨ (Rect.block (s := S10000x128) S10000x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S10000x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KRows.lean ====
/-
  Overwriting a band of 400 consecutive rows of a 10000 x 128 array, and what a store of such a band
  through a view reads back as.
-/
import proofs.«167623_g47150150975849_cont_8to1_c_844_13_alg».proof.Proof.Gen.Kernel.Frame
import proofs.«167623_g47150150975849_cont_8to1_c_844_13_alg».proof.Proof.Gen.Kernel.Skeleton
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The branch and the row offset, in closed form over the 25 grid points -/

/-- The body's one branch: taken when the grid coordinate is zero. -/
abbrev atFirst (i : grid0.Coords) : Prop :=
  (Scalar.cmpi .ne (Scalar.extui (Scalar.cmpi .eq (BitVec.ofNat 32 (i 0).val) 0#32)) 0#32) = 1#1

/-- It is taken at the first grid point and at no other. -/
theorem atFirst_iff : ∀ t : Fin cfg0.N, atFirst (grid0.coords t) ↔ t.val = 0 :=
  (by decide +kernel : ∀ t : Fin grid0.N, atFirst (grid0.coords t) ↔ t.val = 0)

/-- Grid point `t` stores rows `400 t … 400 t + 399`, every column. -/
theorem rowOff_eq : ∀ t : Fin cfg0.N, k0_off1 (grid0.coords t) = ![400 * t.val, 0] :=
  (by decide +kernel : ∀ t : Fin grid0.N, k0_off1 (grid0.coords t) = ![400 * t.val, 0])

/-! ## A band of rows overwritten -/

/-- Row `j 0` of the big array, when it lies in the band starting at row `o`, as a row of the band. -/
def inBand (o : ℕ) (j : S10000x128.Idx) (h : o ≤ (j 0).val ∧ (j 0).val < o + 400) : S400x128.Idx :=
  fun a => match a with
    | ⟨0, _⟩ => ⟨(j 0).val - o, by show (j 0).val - o < 400; omega⟩
    | ⟨1, _⟩ => ⟨(j 1).val, (j 1).isLt⟩

/-- `y` with rows `o … o + 399` replaced by the 400 rows of `p`. -/
def putRows (o : ℕ) (y : Vec F S10000x128 .f32) (p : Vec F S400x128 .f32) : Vec F S10000x128 .f32 :=
  fun j => if h : o ≤ (j 0).val ∧ (j 0).val < o + 400 then p (inBand o j h) else y j

theorem putRows_of_mem (o : ℕ) (y : Vec F S10000x128 .f32) (p : Vec F S400x128 .f32) (j : S10000x128.Idx)
    (h : o ≤ (j 0).val ∧ (j 0).val < o + 400) : putRows o y p j = p (inBand o j h) := dif_pos h

theorem putRows_of_not_mem (o : ℕ) (y : Vec F S10000x128 .f32) (p : Vec F S400x128 .f32) (j : S10000x128.Idx)
    (h : ¬(o ≤ (j 0).val ∧ (j 0).val < o + 400)) : putRows o y p j = y j := dif_neg h

/-- One store of a band of rows through a view of the big array reads back as the band overwritten. -/
theorem read_band_store {κ : Kind} {sp : Space} (v : View sig κ sp S10000x128 .f32) (f : v.ty.Contents (Elt F))
    {off : Fin 2 → ℕ} (inb : ∀ a : Fin 2, off a + S400x128.size a ≤ S10000x128.size a)
    (w : (Rect.unit (s := S10000x128) off S400x128.size inb).shape.Idx → Elt F .f32) (o : ℕ) (hoff : off = ![o, 0]) :
    v.read (Elt F) (v.writes (Elt F) f [⟨Rect.unit (s := S10000x128) off S400x128.size inb, w⟩])
      = putRows o (v.read (Elt F) f) w := by
  funext j
  by_cases h : o ≤ (j 0).val ∧ (j 0).val < o + 400
  · rw [putRows_of_mem o _ _ j h]
    exact View.read_writes_cons_rows_of_mem v f inb w [] j (inBand o j h) hoff
      (by show (j 0).val = o + ((j 0).val - o); omega) rfl
  · rw [putRows_of_not_mem o _ _ j h]
    exact View.read_writes_cons_rows_of_not_mem (W := 400) v f inb w [] j hoff rfl (by omega)

end Cert.Kernel.Body

end
-- ==== Proof.KRun.lean ====
/-
  The kernel body run once. At the first grid point it fills the scratch with the product of the first two
  operands and then, as at every point, overwrites one band of 400 rows of the output buffer with
  max(block · scratch + bias, 0), leaving every other row of that buffer as it found it.
-/
import proofs.«167623_g47150150975849_cont_8to1_c_844_13_alg».proof.Proof.KRows
import Idealize.ShloMosaic.Lib.Pipeline.Value
import proofs.«167623_g47150150975849_cont_8to1_c_844_13_alg».proof.Proof.Gen.Kernel.Frame
import proofs.«167623_g47150150975849_cont_8to1_c_844_13_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The two zero offsets, however spelt. -/
theorem zeros2 : (![0, 0] : Fin 2 → ℕ) = fun _ => 0 := by
  funext a
  match a with
  | ⟨0, _⟩ => rfl
  | ⟨1, _⟩ => rfl

set_option maxHeartbeats 1000000 in
/-- THE FIRST POINT. The scratch, found at anything, ends at `x0 · x1`; the output buffer, found at `y4`, ends at
    `y4` with rows `o … o + 399` replaced by max(`x3` · (`x0 · x1`) + `x2`, 0); the inputs are as found. -/
theorem run_first (c : Dev nD) (i : grid0.Coords) (o : ℕ) (ho : k0_off1 i = ![o, 0]) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S10000x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S1x128 .f32) (x3 : Vec F S400x10000 .f32) (y4 : Vec F S10000x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare (putRows o y4 (k0_pay2 x3 (k0_pay1 x0 x1) x2))
                ∗ owns (c : Thread nD τ) arg6 fullShare (k0_pay1 x0 x1)) -∗ K ⟨⟩))
          ⊢ wp frame (wpE (defs₀ (F := F)) Variants.none c none) E (cc0__gcn_kernel i arg1 harg1 arg2 harg2 arg3 harg3 arg4 harg4 arg5 harg5 arg6 harg6) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [read_band_store arg5.view f4 (k0_off1_inb i) _ o ho, hf4]
      sl_unfold_run_names
      simp only [View.readAt_eq_ld, harg1.read_unread, harg2.read_unread, harg3.read_unread, harg4.read_unread,
        View.ld_unit_zero (S := S10000x128) zeros2, View.ld_unit_zero (S := S128x128) zeros2,
        View.ld_unit_zero (S := S1x128) zeros2, View.ld_unit_zero (S := S400x10000) zeros2,
        View.readCov_unit_zero (S := S10000x128) arg6.view zeros2]
    iexists _; isplitr; swap; · iexact HS0
    ipureintro
    sl_unfold_run_names
    rw [View.read_writes_eq_canon _ _ _ (fun y => ⟨_, List.mem_singleton_self _, View.mem_set_unit_zero zeros2 inb_S10000x128_S10000x128_0_0 y⟩),
      View.canon_unit_zero zeros2]
    simp only [View.readAt_eq_ld, harg1.read_unread, harg2.read_unread,
      View.ld_unit_zero (S := S10000x128) zeros2, View.ld_unit_zero (S := S128x128) zeros2]

set_option maxHeartbeats 1000000 in
/-- A LATER POINT. The scratch, found at `xs`, is only read; the output buffer, found at `y4`, ends at `y4` with rows
    `o … o + 399` replaced by max(`x3` · `xs` + `x2`, 0); the inputs are as found. -/
theorem run_later (c : Dev nD) (i : grid0.Coords) (o : ℕ) (ho : k0_off1 i = ![o, 0]) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S10000x128 .f32) (harg5 : arg5.IsWhole) (arg6 : Memref sig .tc .vmem S10000x128 .f32) (harg6 : arg6.IsWhole) (hc0 : ¬atFirst i)
    (x0 : Vec F S10000x128 .f32) (x1 : Vec F S128x128 .f32) (x2 : Vec F S1x128 .f32) (x3 : Vec F S400x10000 .f32) (y4 : Vec F S10000x128 .f32) (xs : Vec F S10000x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare (putRows o y4 (k0_pay2 x3 xs x2))
                ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3
    obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [read_band_store arg5.view f4 (k0_off1_inb i) _ o ho, hf4]
      sl_unfold_run_names
      simp only [View.readAt_eq_ld, harg3.read_unread, harg4.read_unread, harg6.read_unread,
        View.ld_unit_zero (S := S10000x128) zeros2,
        View.ld_unit_zero (S := S1x128) zeros2, View.ld_unit_zero (S := S400x10000) zeros2]
    iexists _; isplitr; · ipureintro; exact harg6.read_unread _
    iexact HS0

end Cert.Kernel.Body

end
-- ==== Proof.KData.lean ====
/-
  The proof data of the one pipeline and its run. The scratch holds the product of the first two operands from
  the first grid point on; the output's staging buffer is handed from point to point, each point overwriting its
  own band of 400 rows; the three small operands and the streamed row blocks are found at their blocks.
-/
import proofs.«167623_g47150150975849_cont_8to1_c_844_13_alg».proof.Proof.KRun
import proofs.«167623_g47150150975849_cont_8to1_c_844_13_alg».proof.Proof.Gen.Kernel.Frame
import proofs.«167623_g47150150975849_cont_8to1_c_844_13_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried between points -/

/-- The first grid point. -/
abbrev t₀ : Fin cfg0.N := ⟨0, Nat.lt_of_lt_of_eq (by decide : 0 < 25) N_0.symm⟩

/-- What the scratch holds once the first point has run: the product of the first two operands. -/
def support (c : Dev nD) : Vec F S10000x128 .f32 := k0_pay1 (iblk m c 0 t₀) (iblk m c 1 t₀)

/-- The band of rows grid point `t` stores: max(row block `t` · support + bias, 0). -/
def band (c : Dev nD) (t : Fin cfg0.N) : Vec F S400x128 .f32 := k0_pay2 (iblk m c 3 t) (support m c) (iblk m c 2 t)

/-- The scratch operand, a whole buffer of the kernel's own. -/
abbrev scM : Memref sig .tc .vmem S10000x128 .f32 := Memref.whole cc0_scratch0

/-- The standing invariant of the region: the scratch owned at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before the point at position `n`: before the first the scratch holds anything, after it the support. -/
def PhiS (c : Dev nD) : ℕ → sProp 𝕄
  | 0 => Pipeline.ΦA spec0 c
  | _ + 1 => iprop(iprop(owns (c : Thread nD τ) scM fullShare (support m c)) ∗ (∃ r, prngReg c r))

theorem PhiS_pos (c : Dev nD) (n : ℕ) (h : n ≠ 0) :
    PhiS m c n = iprop(iprop(owns (c : Thread nD τ) scM fullShare (support m c)) ∗ (∃ r, prngReg c r)) := by
  obtain ⟨k, rfl⟩ := Nat.exists_eq_succ_of_ne_zero h; rfl

/-! ## The proof data -/

/-- The inputs named (each buffer at its block, before and after the body); the output's entry left unnamed here
    and constrained below. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := PhiS m c t.val
  q _ := fullShare
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]

/-- What a point does to the output's staging buffer: its own band of rows overwritten, every other row kept. -/
def bandRel (c : Dev nD) (t : Fin cfg0.N) (Y X : Vec F S10000x128 .f32) : Prop :=
  X = putRows (400 * t.val) Y (band m c t)

/-- Only the output window is constrained rather than named. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => some (bandRel m c)

/-- The relational proof data. -/
def rdat (c : Dev nD) : RDat τ (Elt F) Unit ℕ (UR sig nD τ) ℕ cfg0 c := (dat m c).toR.override (ovr m c)

theorem rdat_after_4 (c : Dev nD) : (rdat m c).after 4 = bandRel m c :=
  (dat m c).toR.override_after_of_eq_some (ovr := ovr m c) (w := 4) rfl

/-- An input's buffer is found at its block. -/
theorem found_0 (c : Dev nD) (t : Fin cfg0.N) (Y) (h : (rdat m c).Finds 0 t Y) : Y = iblk m c 0 t := by
  obtain ⟨d, rfl⟩ := (dat m c).toR_finds 0 t Y (((dat m c).toR.override_finds (ovr := ovr m c) (w := 0) rfl t Y).mp h)
  exact before0_0_of m (dat m c) (A_eq m c 0) (after_0 m c) t d
theorem found_1 (c : Dev nD) (t : Fin cfg0.N) (Y) (h : (rdat m c).Finds 1 t Y) : Y = iblk m c 1 t := by
  obtain ⟨d, rfl⟩ := (dat m c).toR_finds 1 t Y (((dat m c).toR.override_finds (ovr := ovr m c) (w := 1) rfl t Y).mp h)
  exact before0_1_of m (dat m c) (A_eq m c 1) (after_1 m c) t d
theorem found_2 (c : Dev nD) (t : Fin cfg0.N) (Y) (h : (rdat m c).Finds 2 t Y) : Y = iblk m c 2 t := by
  obtain ⟨d, rfl⟩ := (dat m c).toR_finds 2 t Y (((dat m c).toR.override_finds (ovr := ovr m c) (w := 2) rfl t Y).mp h)
  exact before0_2_of m (dat m c) (A_eq m c 2) (after_2 m c) t d
theorem found_3 (c : Dev nD) (t : Fin cfg0.N) (Y) (h : (rdat m c).Finds 3 t Y) : Y = iblk m c 3 t := by
  obtain ⟨d, rfl⟩ := (dat m c).toR_finds 3 t Y (((dat m c).toR.override_finds (ovr := ovr m c) (w := 3) rfl t Y).mp h)
  exact before0_3_of m (dat m c) (A_eq m c 3) (after_3 m c) t d

/-- An input's buffer left at its block is left as the data ask. -/
theorem left_0 (c : Dev nD) (t : Fin cfg0.N) (Y) : (rdat m c).after 0 t Y (iblk m c 0 t) := by
  rw [show (rdat m c).after 0 = (dat m c).toR.after 0 from (dat m c).toR.override_after_of_eq_none (ovr := ovr m c) (w := 0) rfl]
  show (dat m c).Leaves 0 t _
  unfold Dat.Leaves; exact (after_0 m c t).symm
theorem left_1 (c : Dev nD) (t : Fin cfg0.N) (Y) : (rdat m c).after 1 t Y (iblk m c 1 t) := by
  rw [show (rdat m c).after 1 = (dat m c).toR.after 1 from (dat m c).toR.override_after_of_eq_none (ovr := ovr m c) (w := 1) rfl]
  show (dat m c).Leaves 1 t _
  unfold Dat.Leaves; exact (after_1 m c t).symm
theorem left_2 (c : Dev nD) (t : Fin cfg0.N) (Y) : (rdat m c).after 2 t Y (iblk m c 2 t) := by
  rw [show (rdat m c).after 2 = (dat m c).toR.after 2 from (dat m c).toR.override_after_of_eq_none (ovr := ovr m c) (w := 2) rfl]
  show (dat m c).Leaves 2 t _
  unfold Dat.Leaves; exact (after_2 m c t).symm
theorem left_3 (c : Dev nD) (t : Fin cfg0.N) (Y) : (rdat m c).after 3 t Y (iblk m c 3 t) := by
  rw [show (rdat m c).after 3 = (dat m c).toR.after 3 from (dat m c).toR.override_after_of_eq_none (ovr := ovr m c) (w := 3) rfl]
  show (dat m c).Leaves 3 t _
  unfold Dat.Leaves; exact (after_3 m c t).symm

/-! ## The body obligation -/

/-- Each window's current staging memref at point `t`, as the pipeline passes it. -/
abbrev ms0 (t : Fin cfg0.N) : Memref sig .tc .vmem S10000x128 .f32 := win0_0.stage (cfg0.slots t 0)
abbrev ms1 (t : Fin cfg0.N) : Memref sig .tc .vmem S128x128 .f32 := win0_1.stage (cfg0.slots t 1)
abbrev ms2 (t : Fin cfg0.N) : Memref sig .tc .vmem S1x128 .f32 := win0_2.stage (cfg0.slots t 2)
abbrev ms3 (t : Fin cfg0.N) : Memref sig .tc .vmem S400x10000 .f32 := win0_3.stage (cfg0.slots t 3)
abbrev ms4 (t : Fin cfg0.N) : Memref sig .tc .vmem S10000x128 .f32 := win0_4.stage (cfg0.slots t 4)

set_option maxHeartbeats 800000 in
/-- The body at any point, the output's buffer handed over at `y4`. -/
theorem sound_body (c : Dev nD) (t : Fin cfg0.N) (y4 : Vec F S10000x128 .f32) :
    iprop(PhiS m c t.val ∗ (dat m c).owesAt () t.castSucc
      ∗ owns (c : Thread nD τ) (ms0 t) fullShare (iblk m c 0 t)
      ∗ owns (c : Thread nD τ) (ms1 t) fullShare (iblk m c 1 t)
      ∗ owns (c : Thread nD τ) (ms2 t) fullShare (iblk m c 2 t)
      ∗ owns (c : Thread nD τ) (ms3 t) fullShare (iblk m c 3 t)
      ∗ owns (c : Thread nD τ) (ms4 t) fullShare y4)
    ⊢ wp frame (wpE (defs₀ (F := F)) Variants.none c none) Set.univ (bodyAt0 t) (fun _ =>
      iprop(PhiS m c (t.val + 1) ∗ (dat m c).owesAt () t.castSucc
        ∗ owns (c : Thread nD τ) (ms0 t) fullShare (iblk m c 0 t)
        ∗ owns (c : Thread nD τ) (ms1 t) fullShare (iblk m c 1 t)
        ∗ owns (c : Thread nD τ) (ms2 t) fullShare (iblk m c 2 t)
        ∗ owns (c : Thread nD τ) (ms3 t) fullShare (iblk m c 3 t)
        ∗ owns (c : Thread nD τ) (ms4 t) fullShare (putRows (400 * t.val) y4 (band m c t)))) := by
  unfold bodyAt0
  rw [show PhiS m c (t.val + 1) = iprop(iprop(owns (c : Thread nD τ) scM fullShare (support m c)) ∗ (∃ r, prngReg c r)) from rfl]
  unfold band
  by_cases h0 : t.val = 0
  · have es : support m c = k0_pay1 (iblk m c 0 t) (iblk m c 1 t) := by
      obtain rfl : t = t₀ := Fin.ext h0
      rfl
    rw [show PhiS m c t.val = Pipeline.ΦA spec0 c from by rw [h0]; rfl, PhiA_eq, es]
    iintro ⟨⟨HS0, Hg⟩, Ho, H0, H1, H2, H3, H4⟩
    iapply ((run_first c (grid0.coords t) (400 * t.val) (rowOff_eq t) _ _ _ _ _ _ _ _ _ _ _ _ ((atFirst_iff t).mpr h0) (iblk m c 0 t) (iblk m c 1 t) (iblk m c 2 t) (iblk m c 3 t) y4) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · rw [PhiS_pos m c t.val h0]
    iintro ⟨⟨HS0, Hg⟩, Ho, H0, H1, H2, H3, H4⟩
    iapply ((run_later c (grid0.coords t) (400 * t.val) (rowOff_eq t) _ _ _ _ _ _ _ _ _ _ _ _ (fun h => h0 ((atFirst_iff t).mp h)) (iblk m c 0 t) (iblk m c 1 t) (iblk m c 2 t) (iblk m c 3 t) y4 (support m c)) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4

/-- The body's obligation at every point, for whatever contents the five buffers may be found at. -/
theorem body_obligation (c : Dev nD) : (rdat m c).BodyObligation (defs₀ (F := F)) Variants.none () Set.univ := by
  intro t Y hY
  rw [bigSep_W0, bigSep_W0]
  rw [show (rdat m c).Φ t.succ = PhiS m c (t.val + 1) from rfl,
    show (rdat m c).owesAt () t.succ = (dat m c).owesAt () t.castSucc from rfl,
    show (rdat m c).Φ t.castSucc = PhiS m c t.val from rfl,
    show (rdat m c).owesAt () t.castSucc = (dat m c).owesAt () t.castSucc from rfl]
  rw [found_0 m c t (Y 0) (hY 0), found_1 m c t (Y 1) (hY 1), found_2 m c t (Y 2) (hY 2), found_3 m c t (Y 3) (hY 3)]
  refine (sound_body m c t (Y 4)).trans (wp_mono _ _ _ fun _ => ?_)
  iintro ⟨HP, Ho, H0, H1, H2, H3, H4⟩
  isplitl [HP]
  · iexact HP
  isplitl [Ho]
  · iexact Ho
  isplitl [H0]
  · iexists _
    isplitr
    · ipureintro
      exact left_0 m c t _
    · iexact H0
  isplitl [H1]
  · iexists _
    isplitr
    · ipureintro
      exact left_1 m c t _
    · iexact H1
  isplitl [H2]
  · iexists _
    isplitr
    · ipureintro
      exact left_2 m c t _
    · iexact H2
  isplitl [H3]
  · iexists _
    isplitr
    · ipureintro
      exact left_3 m c t _
    · iexact H3
  iexists _
  isplitr
  · ipureintro
    rw [rdat_after_4]
    exact rfl
  · iexact H4

/-! ## The run -/

theorem hin (c : Dev nD) : Pipeline.ΦA spec0 c ⊢ (rdat m c).Φ 0 := .rfl

theorem hout (c : Dev nD) : (rdat m c).Φ (Fin.last cfg0.N) ⊢ Pipeline.ΦA spec0 c := by
  rw [show (rdat m c).Φ (Fin.last cfg0.N) = PhiS m c cfg0.N from rfl,
    PhiS_pos m c cfg0.N (by rw [show cfg0.N = 25 from N_0]; decide), PhiA_eq]
  iintro ⟨HS0, Hg⟩
  isplitl [HS0]
  · iexists _; iexact HS0
  iexact Hg

set_option backward.isDefEq.respectTransparency.types false in
/-- Every weakly fair execution of the program terminates without a fault; each windowed array ends at contents the
    data allow after every write-back, and every other unscoped buffer as the region found it. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun c w => A_eq m c w)
    (hin := hin m) (hout := hout m)

/-- An input array ends as the region found it. -/
theorem input_kept (c : Dev nD) (w : Fin cfg0.W) (hw : (cfg0.win w).isOut = false) (G) (h : (rdat m c).ArrAt w cfg0.N G) :
    G = V m c (Pipeline.arrRef spec0 w) :=
  (Eq.mp (congrFun ((rdat m c).ArrAt_in w hw cfg0.N) G) h).trans (A_eq m c w)

/-- THE FRAME: the program runs, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(input_kept m c 0 rfl _ ((h c).1 0)).trans (V_main_arg0 m c),
      (input_kept m c 3 rfl _ ((h c).1 3)).trans (V_main_arg1 m c),
      (input_kept m c 1 rfl _ ((h c).1 1)).trans (V_main_arg2 m c),
      ((h c).2 main_arg3 (Pipeline.mem_restRefs_of main_arg3 (by decide) (by decide))).trans (V_main_arg3 m c)⟩) (run_main m ρ)

end Cert.Kernel.Body

end
-- ==== Proof.Rows.lean ====
/-
  Overwriting a band of 400 consecutive rows of a 10000 x 128 array, and what a store of such a band
  through a view reads back as.
-/
import proofs.«167623_g47150150975849_cont_8to1_c_844_13_alg».proof.Proof.Gen.KernelIdeal.Frame
import proofs.«167623_g47150150975849_cont_8to1_c_844_13_alg».proof.Proof.Gen.KernelIdeal.Skeleton
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## The branch and the row offset, in closed form over the 25 grid points -/

/-- The body's one branch: taken when the grid coordinate is zero. -/
abbrev atFirst (i : grid0.Coords) : Prop :=
  (Scalar.cmpi .ne (Scalar.extui (Scalar.cmpi .eq (BitVec.ofNat 32 (i 0).val) 0#32)) 0#32) = 1#1

/-- It is taken at the first grid point and at no other. -/
theorem atFirst_iff : ∀ t : Fin cfg0.N, atFirst (grid0.coords t) ↔ t.val = 0 :=
  (by decide +kernel : ∀ t : Fin grid0.N, atFirst (grid0.coords t) ↔ t.val = 0)

/-- Grid point `t` stores rows `400 t … 400 t + 399`, every column. -/
theorem rowOff_eq : ∀ t : Fin cfg0.N, k0_off1 (grid0.coords t) = ![400 * t.val, 0] :=
  (by decide +kernel : ∀ t : Fin grid0.N, k0_off1 (grid0.coords t) = ![400 * t.val, 0])

/-! ## A band of rows overwritten -/

/-- Row `j 0` of the big array, when it lies in the band starting at row `o`, as a row of the band. -/
def inBand (o : ℕ) (j : S10000x128.Idx) (h : o ≤ (j 0).val ∧ (j 0).val < o + 400) : S400x128.Idx :=
  fun a => match a with
    | ⟨0, _⟩ => ⟨(j 0).val - o, by show (j 0).val - o < 400; omega⟩
    | ⟨1, _⟩ => ⟨(j 1).val, (j 1).isLt⟩

/-- `y` with rows `o … o + 399` replaced by the 400 rows of `p`. -/
def putRows (o : ℕ) (y : Vec F S10000x128 .f32) (p : Vec F S400x128 .f32) : Vec F S10000x128 .f32 :=
  fun j => if h : o ≤ (j 0).val ∧ (j 0).val < o + 400 then p (inBand o j h) else y j

theorem putRows_of_mem (o : ℕ) (y : Vec F S10000x128 .f32) (p : Vec F S400x128 .f32) (j : S10000x128.Idx)
    (h : o ≤ (j 0).val ∧ (j 0).val < o + 400) : putRows o y p j = p (inBand o j h) := dif_pos h

theorem putRows_of_not_mem (o : ℕ) (y : Vec F S10000x128 .f32) (p : Vec F S400x128 .f32) (j : S10000x128.Idx)
    (h : ¬(o ≤ (j 0).val ∧ (j 0).val < o + 400)) : putRows o y p j = y j := dif_neg h

/-- One store of a band of rows through a view of the big array reads back as the band overwritten. -/
theorem read_band_store {κ : Kind} {sp : Space} (v : View sig κ sp S10000x128 .f32) (f : v.ty.Contents (Elt F))
    {off : Fin 2 → ℕ} (inb : ∀ a : Fin 2, off a + S400x128.size a ≤ S10000x128.size a)
    (w : (Rect.unit (s := S10000x128) off S400x128.size inb).shape.Idx → Elt F .f32) (o : ℕ) (hoff : off = ![o, 0]) :
    v.read (Elt F) (v.writes (Elt F) f [⟨Rect.unit (s := S10000x128) off S400x128.size inb, w⟩])
      = putRows o (v.read (Elt F) f) w := by
  funext j
  by_cases h : o ≤ (j 0).val ∧ (j 0).val < o + 400
  · rw [putRows_of_mem o _ _ j h]
    exact View.read_writes_cons_rows_of_mem v f inb w [] j (inBand o j h) hoff
      (by show (j 0).val = o + ((j 0).val - o); omega) rfl
  · rw [putRows_of_not_mem o _ _ j h]
    exact View.read_writes_cons_rows_of_not_mem (W := 400) v f inb w [] j hoff rfl (by omega)

end Cert.KernelIdeal.Body

end
-- ==== Proof.Run.lean ====
/-
  The kernel body run once. At the first grid point it fills the scratch with the product of the first two
  operands and then, as at every point, overwrites one band of 400 rows of the output buffer with
  max(block · scratch + bias, 0), leaving every other row of that buffer as it found it.
-/
import proofs.«167623_g47150150975849_cont_8to1_c_844_13_alg».proof.Proof.Rows
import Idealize.ShloMosaic.Lib.Pipeline.Value
import proofs.«167623_g47150150975849_cont_8to1_c_844_13_alg».proof.Proof.Gen.KernelIdeal.Frame
import proofs.«167623_g47150150975849_cont_8to1_c_844_13_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The two zero offsets, however spelt. -/
theorem zeros2 : (![0, 0] : Fin 2 → ℕ) = fun _ => 0 := by
  funext a
  match a with
  | ⟨0, _⟩ => rfl
  | ⟨1, _⟩ => rfl

set_option maxHeartbeats 1000000 in
/-- THE FIRST POINT. The scratch, found at anything, ends at `x0 · x1`; the output buffer, found at `y4`, ends at
    `y4` with rows `o … o + 399` replaced by max(`x3` · (`x0 · x1`) + `x2`, 0); the inputs are as found. -/
theorem run_first (c : Dev nD) (i : grid0.Coords) (o : ℕ) (ho : k0_off1 i = ![o, 0]) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S10000x128 .f32) (harg5 : arg5.IsWhole) (arg6 : Memref sig .tc .vmem S10000x128 .f32) (harg6 : arg6.IsWhole) (hc0 : atFirst i)
    (x0 : Vec F S10000x128 .f32) (x1 : Vec F S128x128 .f32) (x2 : Vec F S1x128 .f32) (x3 : Vec F S400x10000 .f32) (y4 : Vec F S10000x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare (putRows o y4 (k0_pay2 x3 (k0_pay1 x0 x1) x2))
                ∗ owns (c : Thread nD τ) arg6 fullShare (k0_pay1 x0 x1)) -∗ K ⟨⟩))
          ⊢ wp frame (wpE (defs₀ (F := F)) Variants.none c none) E (cc0__gcn_kernel i arg1 harg1 arg2 harg2 arg3 harg3 arg4 harg4 arg5 harg5 arg6 harg6) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [read_band_store arg5.view f4 (k0_off1_inb i) _ o ho, hf4]
      sl_unfold_run_names
      simp only [View.readAt_eq_ld, harg1.read_unread, harg2.read_unread, harg3.read_unread, harg4.read_unread,
        View.ld_unit_zero (S := S10000x128) zeros2, View.ld_unit_zero (S := S128x128) zeros2,
        View.ld_unit_zero (S := S1x128) zeros2, View.ld_unit_zero (S := S400x10000) zeros2,
        View.readCov_unit_zero (S := S10000x128) arg6.view zeros2]
    iexists _; isplitr; swap; · iexact HS0
    ipureintro
    sl_unfold_run_names
    rw [View.read_writes_eq_canon _ _ _ (fun y => ⟨_, List.mem_singleton_self _, View.mem_set_unit_zero zeros2 inb_S10000x128_S10000x128_0_0 y⟩),
      View.canon_unit_zero zeros2]
    simp only [View.readAt_eq_ld, harg1.read_unread, harg2.read_unread,
      View.ld_unit_zero (S := S10000x128) zeros2, View.ld_unit_zero (S := S128x128) zeros2]

set_option maxHeartbeats 1000000 in
/-- A LATER POINT. The scratch, found at `xs`, is only read; the output buffer, found at `y4`, ends at `y4` with rows
    `o … o + 399` replaced by max(`x3` · `xs` + `x2`, 0); the inputs are as found. -/
theorem run_later (c : Dev nD) (i : grid0.Coords) (o : ℕ) (ho : k0_off1 i = ![o, 0]) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S10000x128 .f32) (harg5 : arg5.IsWhole) (arg6 : Memref sig .tc .vmem S10000x128 .f32) (harg6 : arg6.IsWhole) (hc0 : ¬atFirst i)
    (x0 : Vec F S10000x128 .f32) (x1 : Vec F S128x128 .f32) (x2 : Vec F S1x128 .f32) (x3 : Vec F S400x10000 .f32) (y4 : Vec F S10000x128 .f32) (xs : Vec F S10000x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare (putRows o y4 (k0_pay2 x3 xs x2))
                ∗ owns (c : Thread nD τ) arg6 fullShare xs) -∗ K ⟨⟩))
          ⊢ wp frame (wpE (defs₀ (F := F)) Variants.none c none) E (cc0__gcn_kernel i arg1 harg1 arg2 harg2 arg3 harg3 arg4 harg4 arg5 harg5 arg6 harg6) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3
    obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [read_band_store arg5.view f4 (k0_off1_inb i) _ o ho, hf4]
      sl_unfold_run_names
      simp only [View.readAt_eq_ld, harg3.read_unread, harg4.read_unread, harg6.read_unread,
        View.ld_unit_zero (S := S10000x128) zeros2,
        View.ld_unit_zero (S := S1x128) zeros2, View.ld_unit_zero (S := S400x10000) zeros2]
    iexists _; isplitr; · ipureintro; exact harg6.read_unread _
    iexact HS0

end Cert.KernelIdeal.Body

end
-- ==== Proof.Data.lean ====
/-
  The proof data of the one pipeline and its run. The scratch holds the product of the first two operands from
  the first grid point on; the output's staging buffer is handed from point to point, each point overwriting its
  own band of 400 rows; the three small operands and the streamed row blocks are found at their blocks.
-/
import proofs.«167623_g47150150975849_cont_8to1_c_844_13_alg».proof.Proof.Run
import proofs.«167623_g47150150975849_cont_8to1_c_844_13_alg».proof.Proof.Gen.KernelIdeal.Frame
import proofs.«167623_g47150150975849_cont_8to1_c_844_13_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried between points -/

/-- The first grid point. -/
abbrev t₀ : Fin cfg0.N := ⟨0, Nat.lt_of_lt_of_eq (by decide : 0 < 25) N_0.symm⟩

/-- What the scratch holds once the first point has run: the product of the first two operands. -/
def support (c : Dev nD) : Vec F S10000x128 .f32 := k0_pay1 (iblk m c 0 t₀) (iblk m c 1 t₀)

/-- The band of rows grid point `t` stores: max(row block `t` · support + bias, 0). -/
def band (c : Dev nD) (t : Fin cfg0.N) : Vec F S400x128 .f32 := k0_pay2 (iblk m c 3 t) (support m c) (iblk m c 2 t)

/-- The scratch operand, a whole buffer of the kernel's own. -/
abbrev scM : Memref sig .tc .vmem S10000x128 .f32 := Memref.whole cc0_scratch0

/-- The standing invariant of the region: the scratch owned at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before the point at position `n`: before the first the scratch holds anything, after it the support. -/
def PhiS (c : Dev nD) : ℕ → sProp 𝕄
  | 0 => Pipeline.ΦA spec0 c
  | _ + 1 => iprop(iprop(owns (c : Thread nD τ) scM fullShare (support m c)) ∗ (∃ r, prngReg c r))

theorem PhiS_pos (c : Dev nD) (n : ℕ) (h : n ≠ 0) :
    PhiS m c n = iprop(iprop(owns (c : Thread nD τ) scM fullShare (support m c)) ∗ (∃ r, prngReg c r)) := by
  obtain ⟨k, rfl⟩ := Nat.exists_eq_succ_of_ne_zero h; rfl

/-! ## The proof data -/

/-- The inputs named (each buffer at its block, before and after the body); the output's entry left unnamed here
    and constrained below. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := PhiS m c t.val
  q _ := fullShare
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]

/-- What a point does to the output's staging buffer: its own band of rows overwritten, every other row kept. -/
def bandRel (c : Dev nD) (t : Fin cfg0.N) (Y X : Vec F S10000x128 .f32) : Prop :=
  X = putRows (400 * t.val) Y (band m c t)

/-- Only the output window is constrained rather than named. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => some (bandRel m c)

/-- The relational proof data. -/
def rdat (c : Dev nD) : RDat τ (Elt F) Unit ℕ (UR sig nD τ) ℕ cfg0 c := (dat m c).toR.override (ovr m c)

theorem rdat_after_4 (c : Dev nD) : (rdat m c).after 4 = bandRel m c :=
  (dat m c).toR.override_after_of_eq_some (ovr := ovr m c) (w := 4) rfl

/-- An input's buffer is found at its block. -/
theorem found_0 (c : Dev nD) (t : Fin cfg0.N) (Y) (h : (rdat m c).Finds 0 t Y) : Y = iblk m c 0 t := by
  obtain ⟨d, rfl⟩ := (dat m c).toR_finds 0 t Y (((dat m c).toR.override_finds (ovr := ovr m c) (w := 0) rfl t Y).mp h)
  exact before0_0_of m (dat m c) (A_eq m c 0) (after_0 m c) t d
theorem found_1 (c : Dev nD) (t : Fin cfg0.N) (Y) (h : (rdat m c).Finds 1 t Y) : Y = iblk m c 1 t := by
  obtain ⟨d, rfl⟩ := (dat m c).toR_finds 1 t Y (((dat m c).toR.override_finds (ovr := ovr m c) (w := 1) rfl t Y).mp h)
  exact before0_1_of m (dat m c) (A_eq m c 1) (after_1 m c) t d
theorem found_2 (c : Dev nD) (t : Fin cfg0.N) (Y) (h : (rdat m c).Finds 2 t Y) : Y = iblk m c 2 t := by
  obtain ⟨d, rfl⟩ := (dat m c).toR_finds 2 t Y (((dat m c).toR.override_finds (ovr := ovr m c) (w := 2) rfl t Y).mp h)
  exact before0_2_of m (dat m c) (A_eq m c 2) (after_2 m c) t d
theorem found_3 (c : Dev nD) (t : Fin cfg0.N) (Y) (h : (rdat m c).Finds 3 t Y) : Y = iblk m c 3 t := by
  obtain ⟨d, rfl⟩ := (dat m c).toR_finds 3 t Y (((dat m c).toR.override_finds (ovr := ovr m c) (w := 3) rfl t Y).mp h)
  exact before0_3_of m (dat m c) (A_eq m c 3) (after_3 m c) t d

/-- An input's buffer left at its block is left as the data ask. -/
theorem left_0 (c : Dev nD) (t : Fin cfg0.N) (Y) : (rdat m c).after 0 t Y (iblk m c 0 t) := by
  rw [show (rdat m c).after 0 = (dat m c).toR.after 0 from (dat m c).toR.override_after_of_eq_none (ovr := ovr m c) (w := 0) rfl]
  show (dat m c).Leaves 0 t _
  unfold Dat.Leaves; exact (after_0 m c t).symm
theorem left_1 (c : Dev nD) (t : Fin cfg0.N) (Y) : (rdat m c).after 1 t Y (iblk m c 1 t) := by
  rw [show (rdat m c).after 1 = (dat m c).toR.after 1 from (dat m c).toR.override_after_of_eq_none (ovr := ovr m c) (w := 1) rfl]
  show (dat m c).Leaves 1 t _
  unfold Dat.Leaves; exact (after_1 m c t).symm
theorem left_2 (c : Dev nD) (t : Fin cfg0.N) (Y) : (rdat m c).after 2 t Y (iblk m c 2 t) := by
  rw [show (rdat m c).after 2 = (dat m c).toR.after 2 from (dat m c).toR.override_after_of_eq_none (ovr := ovr m c) (w := 2) rfl]
  show (dat m c).Leaves 2 t _
  unfold Dat.Leaves; exact (after_2 m c t).symm
theorem left_3 (c : Dev nD) (t : Fin cfg0.N) (Y) : (rdat m c).after 3 t Y (iblk m c 3 t) := by
  rw [show (rdat m c).after 3 = (dat m c).toR.after 3 from (dat m c).toR.override_after_of_eq_none (ovr := ovr m c) (w := 3) rfl]
  show (dat m c).Leaves 3 t _
  unfold Dat.Leaves; exact (after_3 m c t).symm

/-! ## The body obligation -/

/-- Each window's current staging memref at point `t`, as the pipeline passes it. -/
abbrev ms0 (t : Fin cfg0.N) : Memref sig .tc .vmem S10000x128 .f32 := win0_0.stage (cfg0.slots t 0)
abbrev ms1 (t : Fin cfg0.N) : Memref sig .tc .vmem S128x128 .f32 := win0_1.stage (cfg0.slots t 1)
abbrev ms2 (t : Fin cfg0.N) : Memref sig .tc .vmem S1x128 .f32 := win0_2.stage (cfg0.slots t 2)
abbrev ms3 (t : Fin cfg0.N) : Memref sig .tc .vmem S400x10000 .f32 := win0_3.stage (cfg0.slots t 3)
abbrev ms4 (t : Fin cfg0.N) : Memref sig .tc .vmem S10000x128 .f32 := win0_4.stage (cfg0.slots t 4)

set_option maxHeartbeats 800000 in
/-- The body at any point, the output's buffer handed over at `y4`. -/
theorem sound_body (c : Dev nD) (t : Fin cfg0.N) (y4 : Vec F S10000x128 .f32) :
    iprop(PhiS m c t.val ∗ (dat m c).owesAt () t.castSucc
      ∗ owns (c : Thread nD τ) (ms0 t) fullShare (iblk m c 0 t)
      ∗ owns (c : Thread nD τ) (ms1 t) fullShare (iblk m c 1 t)
      ∗ owns (c : Thread nD τ) (ms2 t) fullShare (iblk m c 2 t)
      ∗ owns (c : Thread nD τ) (ms3 t) fullShare (iblk m c 3 t)
      ∗ owns (c : Thread nD τ) (ms4 t) fullShare y4)
    ⊢ wp frame (wpE (defs₀ (F := F)) Variants.none c none) Set.univ (bodyAt0 t) (fun _ =>
      iprop(PhiS m c (t.val + 1) ∗ (dat m c).owesAt () t.castSucc
        ∗ owns (c : Thread nD τ) (ms0 t) fullShare (iblk m c 0 t)
        ∗ owns (c : Thread nD τ) (ms1 t) fullShare (iblk m c 1 t)
        ∗ owns (c : Thread nD τ) (ms2 t) fullShare (iblk m c 2 t)
        ∗ owns (c : Thread nD τ) (ms3 t) fullShare (iblk m c 3 t)
        ∗ owns (c : Thread nD τ) (ms4 t) fullShare (putRows (400 * t.val) y4 (band m c t)))) := by
  unfold bodyAt0
  rw [show PhiS m c (t.val + 1) = iprop(iprop(owns (c : Thread nD τ) scM fullShare (support m c)) ∗ (∃ r, prngReg c r)) from rfl]
  unfold band
  by_cases h0 : t.val = 0
  · have es : support m c = k0_pay1 (iblk m c 0 t) (iblk m c 1 t) := by
      obtain rfl : t = t₀ := Fin.ext h0
      rfl
    rw [show PhiS m c t.val = Pipeline.ΦA spec0 c from by rw [h0]; rfl, PhiA_eq, es]
    iintro ⟨⟨HS0, Hg⟩, Ho, H0, H1, H2, H3, H4⟩
    iapply ((run_first c (grid0.coords t) (400 * t.val) (rowOff_eq t) _ _ _ _ _ _ _ _ _ _ _ _ ((atFirst_iff t).mpr h0) (iblk m c 0 t) (iblk m c 1 t) (iblk m c 2 t) (iblk m c 3 t) y4) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · rw [PhiS_pos m c t.val h0]
    iintro ⟨⟨HS0, Hg⟩, Ho, H0, H1, H2, H3, H4⟩
    iapply ((run_later c (grid0.coords t) (400 * t.val) (rowOff_eq t) _ _ _ _ _ _ _ _ _ _ _ _ (fun h => h0 ((atFirst_iff t).mp h)) (iblk m c 0 t) (iblk m c 1 t) (iblk m c 2 t) (iblk m c 3 t) y4 (support m c)) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4

/-- The body's obligation at every point, for whatever contents the five buffers may be found at. -/
theorem body_obligation (c : Dev nD) : (rdat m c).BodyObligation (defs₀ (F := F)) Variants.none () Set.univ := by
  intro t Y hY
  rw [bigSep_W0, bigSep_W0]
  rw [show (rdat m c).Φ t.succ = PhiS m c (t.val + 1) from rfl,
    show (rdat m c).owesAt () t.succ = (dat m c).owesAt () t.castSucc from rfl,
    show (rdat m c).Φ t.castSucc = PhiS m c t.val from rfl,
    show (rdat m c).owesAt () t.castSucc = (dat m c).owesAt () t.castSucc from rfl]
  rw [found_0 m c t (Y 0) (hY 0), found_1 m c t (Y 1) (hY 1), found_2 m c t (Y 2) (hY 2), found_3 m c t (Y 3) (hY 3)]
  refine (sound_body m c t (Y 4)).trans (wp_mono _ _ _ fun _ => ?_)
  iintro ⟨HP, Ho, H0, H1, H2, H3, H4⟩
  isplitl [HP]
  · iexact HP
  isplitl [Ho]
  · iexact Ho
  isplitl [H0]
  · iexists _
    isplitr
    · ipureintro
      exact left_0 m c t _
    · iexact H0
  isplitl [H1]
  · iexists _
    isplitr
    · ipureintro
      exact left_1 m c t _
    · iexact H1
  isplitl [H2]
  · iexists _
    isplitr
    · ipureintro
      exact left_2 m c t _
    · iexact H2
  isplitl [H3]
  · iexists _
    isplitr
    · ipureintro
      exact left_3 m c t _
    · iexact H3
  iexists _
  isplitr
  · ipureintro
    rw [rdat_after_4]
    exact rfl
  · iexact H4

/-! ## The run -/

theorem hin (c : Dev nD) : Pipeline.ΦA spec0 c ⊢ (rdat m c).Φ 0 := .rfl

theorem hout (c : Dev nD) : (rdat m c).Φ (Fin.last cfg0.N) ⊢ Pipeline.ΦA spec0 c := by
  rw [show (rdat m c).Φ (Fin.last cfg0.N) = PhiS m c cfg0.N from rfl,
    PhiS_pos m c cfg0.N (by rw [show cfg0.N = 25 from N_0]; decide), PhiA_eq]
  iintro ⟨HS0, Hg⟩
  isplitl [HS0]
  · iexists _; iexact HS0
  iexact Hg

set_option backward.isDefEq.respectTransparency.types false in
/-- Every weakly fair execution of the program terminates without a fault; each windowed array ends at contents the
    data allow after every write-back, and every other unscoped buffer as the region found it. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun c w => A_eq m c w)
    (hin := hin m) (hout := hout m)

/-- An input array ends as the region found it. -/
theorem input_kept (c : Dev nD) (w : Fin cfg0.W) (hw : (cfg0.win w).isOut = false) (G) (h : (rdat m c).ArrAt w cfg0.N G) :
    G = V m c (Pipeline.arrRef spec0 w) :=
  (Eq.mp (congrFun ((rdat m c).ArrAt_in w hw cfg0.N) G) h).trans (A_eq m c w)

/-- THE FRAME: the program runs, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(input_kept m c 0 rfl _ ((h c).1 0)).trans (V_main_arg0 m c),
      (input_kept m c 3 rfl _ ((h c).1 3)).trans (V_main_arg1 m c),
      (input_kept m c 1 rfl _ ((h c).1 1)).trans (V_main_arg2 m c),
      ((h c).2 main_arg3 (Pipeline.mem_restRefs_of main_arg3 (by decide) (by decide))).trans (V_main_arg3 m c)⟩) (run_main m ρ)

end Cert.KernelIdeal.Body

end
-- ==== Proof.Final.lean ====
/-
  The output array after the run, as one function of the grid's bands: row r is row r mod 400 of the band that
  grid point r / 400 stored. The staging buffer is handed from point to point, each point overwriting only its own
  band, so after point t every row below 400 (t + 1) is final; the one write-back, after the last point, copies
  the whole buffer into the array.
-/
import proofs.«167623_g47150150975849_cont_8to1_c_844_13_alg».proof.Proof.Data
import proofs.«167623_g47150150975849_cont_8to1_c_844_13_alg».proof.Proof.Gen.KernelIdeal.Frame
import proofs.«167623_g47150150975849_cont_8to1_c_844_13_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem point_lt (t : Fin cfg0.N) : t.val < 25 := lt_of_lt_of_eq t.isLt (show cfg0.N = 25 from N_0)

/-- The grid point whose band holds row `j 0`. -/
def pointOf (j : S10000x128.Idx) : Fin cfg0.N :=
  ⟨(j 0).val / 400, by
    have h : (j 0).val < 10000 := (j 0).isLt
    rw [show cfg0.N = 25 from N_0]; omega⟩

theorem pointOf_band (j : S10000x128.Idx) :
    400 * (pointOf j).val ≤ (j 0).val ∧ (j 0).val < 400 * (pointOf j).val + 400 := by
  show 400 * ((j 0).val / 400) ≤ (j 0).val ∧ (j 0).val < 400 * ((j 0).val / 400) + 400
  omega

/-- The whole output: each row taken from the band of its grid point. -/
def finalArr (c : Dev nD) : Vec F S10000x128 .f32 :=
  fun j => band m c (pointOf j) (inBand (400 * (pointOf j).val) j (pointOf_band j))

/-- A row inside point `t`'s band is that band's row. -/
theorem band_at (c : Dev nD) (t : Fin cfg0.N) (j : S10000x128.Idx)
    (hb : 400 * t.val ≤ (j 0).val ∧ (j 0).val < 400 * t.val + 400) :
    band m c t (inBand (400 * t.val) j hb) = finalArr m c j := by
  have e : pointOf j = t := Fin.ext (by show (j 0).val / 400 = t.val; omega)
  subst e
  rfl

/-- The output window is never fetched. -/
theorem fetch_4 : ∀ t : Fin cfg0.N, (cfg0.win 4).fetch t = false :=
  (by decide +kernel : ∀ t : Fin grid0.N, win0_4.fetch t = false)

/-- Its block is the whole array at every point. -/
theorem idx_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- After point `t` every row below `400 (t + 1)` of the staging buffer is final. -/
theorem leaves_rows (c : Dev nD) : ∀ (n : ℕ) (t : Fin cfg0.N), t.val = n → ∀ X, (rdat m c).Leaves 4 t X →
    ∀ j : S10000x128.Idx, (j 0).val < 400 * (t.val + 1) → X j = finalArr m c j := by
  intro n
  induction n with
  | zero =>
    intro t ht X hX j hj
    obtain ⟨Y, -, hYX⟩ := hX
    rw [rdat_after_4] at hYX
    have hb : 400 * t.val ≤ (j 0).val ∧ (j 0).val < 400 * t.val + 400 := by omega
    rw [show X = putRows (400 * t.val) Y (band m c t) from hYX, putRows_of_mem _ _ _ j hb]
    exact band_at m c t j hb
  | succ n ih =>
    intro t ht X hX j hj
    obtain ⟨Y, hY, hYX⟩ := hX
    rw [rdat_after_4] at hYX
    rw [show X = putRows (400 * t.val) Y (band m c t) from hYX]
    by_cases hb : 400 * t.val ≤ (j 0).val ∧ (j 0).val < 400 * t.val + 400
    · rw [putRows_of_mem _ _ _ j hb]
      exact band_at m c t j hb
    · rw [putRows_of_not_mem _ _ _ j hb]
      have hN := point_lt t
      rcases ((rdat m c).finds_of_pos (fetch_4 t) (by omega) Y).mp hY with hfl | hL
      · have h24 := (flush0_4 _).mp hfl
        have h24' : (t.val - 1) % 25 = 24 := h24
        omega
      · exact ih ⟨t.val - 1, Nat.lt_of_le_of_lt (Nat.sub_le _ _) t.isLt⟩ (by show t.val - 1 = n; omega) Y hL j
          (by show (j 0).val < 400 * (t.val - 1 + 1); omega)

/-- The last grid point. -/
abbrev tLast : Fin cfg0.N := ⟨24, Nat.lt_of_lt_of_eq (by decide : 24 < 25) N_0.symm⟩

/-- THE ARRAY after the run. -/
theorem final_eq (c : Dev nD) (G) (h : (rdat m c).ArrAt 4 cfg0.N G) : G = finalArr m c := by
  have h' : (rdat m c).ArrAt 4 (tLast.val + 1) G :=
    Eq.mp (congrArg (fun n => (rdat m c).ArrAt 4 n G) (show cfg0.N = tLast.val + 1 from N_0)) h
  rw [(rdat m c).ArrAt_succ 4 tLast, if_pos ((flush0_4 tLast).mpr rfl)] at h'
  obtain ⟨G₀, X, -, hX, rfl⟩ := h'
  funext i
  have hemb : ((cfg0.win 4).blk tLast).view.emb i = i := by
    obtain ⟨e0, e1⟩ := idx_4 tLast
    funext a; apply Fin.ext
    match a with
    | ⟨0, _⟩ => show win0_4.index tLast (0 : Fin 2) * 10000 + 1 * (i 0).val = (i 0).val; omega
    | ⟨1, _⟩ => show win0_4.index tLast (1 : Fin 2) * 128 + 1 * (i 1).val = (i 1).val; omega
  have hw := View.write_emb_of_mem (Val := Elt F) (v := ((cfg0.win 4).blk tLast).view) G₀
    ((cfg0.win 4).cut (cfg0.grid.coords tLast) X) (M := Finset.univ) (x := i) (Finset.mem_univ i)
  rw [hemb] at hw
  refine hw.trans ?_
  exact leaves_rows m c 24 tLast rfl X hX i (by
    have hi : (i 0).val < 10000 := (i 0).isLt
    show (i 0).val < 400 * (24 + 1); omega)

/-- The run, read: the result array is `finalArr`, the four argument arrays are unchanged. -/
theorem run_value : θ_run defs (onTc (τ := τ) (main (F := F))) ⟨m, fun _ => 0, ρ⟩ (fun r => ∀ c : Dev nD,
      r.2.mem ((c.tc : Thread nD τ).loc main_v1) = finalArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨final_eq m c _ ((h c).1 4),
      (input_kept m c 0 rfl _ ((h c).1 0)).trans (V_main_arg0 m c),
      (input_kept m c 3 rfl _ ((h c).1 3)).trans (V_main_arg1 m c),
      (input_kept m c 1 rfl _ ((h c).1 1)).trans (V_main_arg2 m c),
      ((h c).2 main_arg3 (Pipeline.mem_restRefs_of main_arg3 (by decide) (by decide))).trans (V_main_arg3 m c)⟩) (run_main m ρ)

end Cert.KernelIdeal.Body

end
-- ==== Proof.Blocks.lean ====
/-
  The windows' blocks as reads of the argument arrays: the three small operands' blocks are the whole arrays, the
  streamed operand's block at grid point t is rows 400 t … 400 t + 399, and the bias window's array is the bias
  vector laid out as one row.
-/
import proofs.«167623_g47150150975849_cont_8to1_c_844_13_alg».proof.Proof.Final
import Idealize.ShloMosaic.Lib.StableHlo.Run
import proofs.«167623_g47150150975849_cont_8to1_c_844_13_alg».proof.Proof.Gen.KernelIdeal.Frame
import proofs.«167623_g47150150975849_cont_8to1_c_844_13_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ)

/-- The input windows' block indices over the grid: the first three constant, the fourth the grid coordinate. -/
theorem idx_in : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0)

/-- The first operand's block is the whole first argument. -/
theorem blk0_eq (c : Dev nD) (t : Fin cfg0.N) :
    (iblk m c 0 t : Vec F S10000x128 .f32) = m ((c : Thread nD τ).loc main_arg0) := by
  funext y
  show V m c main_arg0 (((cfg0.win 0).blk t).view.emb y) = _
  rw [V_main_arg0]
  refine congrArg _ (funext fun a => Fin.ext ?_)
  obtain ⟨e0, e1, -⟩ := idx_in t
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The second operand's block is the whole third argument. -/
theorem blk1_eq (c : Dev nD) (t : Fin cfg0.N) :
    (iblk m c 1 t : Vec F S128x128 .f32) = m ((c : Thread nD τ).loc main_arg2) := by
  funext y
  show V m c main_arg2 (((cfg0.win 1).blk t).view.emb y) = _
  rw [V_main_arg2]
  refine congrArg _ (funext fun a => Fin.ext ?_)
  obtain ⟨-, -, e0, e1, -⟩ := idx_in t
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias window's array, as the region finds it: the bias vector as one row. -/
theorem bias_as_found (c : Dev nD) :
    (V m c main_v0 : S1x128.Idx → Elt F .f32) = shapeCast S1x128 (m ((c : Thread nD τ).loc main_arg3)) shapeCasts_S128_S1x128 := by
  dsimp only [V, hostOps0]
  after_results
  rfl

/-- The bias window's block is that whole row. -/
theorem blk2_eq (c : Dev nD) (t : Fin cfg0.N) :
    (iblk m c 2 t : Vec F S1x128 .f32) = shapeCast S1x128 (m ((c : Thread nD τ).loc main_arg3)) shapeCasts_S128_S1x128 := by
  rw [← bias_as_found m c]
  funext y
  show V m c main_v0 (((cfg0.win 2).blk t).view.emb y) = V m c main_v0 y
  refine congrArg _ (funext fun a => Fin.ext ?_)
  obtain ⟨-, -, -, -, e0, e1, -⟩ := idx_in t
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The streamed operand's block at point `t`, read at a row and column, is the second argument at row `400 t +` that row. -/
theorem blk3_apply (c : Dev nD) (t : Fin cfg0.N) (y : S400x10000.Idx) (i : S10000x10000.Idx)
    (h0 : (i 0).val = 400 * t.val + (y 0).val) (h1 : (i 1).val = (y 1).val) :
    (iblk m c 3 t : Vec F S400x10000 .f32) y = m ((c : Thread nD τ).loc main_arg1) i := by
  show V m c main_arg1 (((cfg0.win 3).blk t).view.emb y) = _
  rw [V_main_arg1]
  refine congrArg _ (funext fun a => Fin.ext ?_)
  obtain ⟨-, -, -, -, -, -, e0, e1⟩ := idx_in t
  match a with
  | ⟨0, _⟩ => show win0_3.index t (0 : Fin 2) * 400 + 1 * (y 0).val = (i 0).val; omega
  | ⟨1, _⟩ => show win0_3.index t (1 : Fin 2) * 10000 + 1 * (y 1).val = (i 1).val; omega

end Cert.KernelIdeal.Body

end
-- ==== Proof.Bridge.lean ====
/-
  At the extended reals the kernel's output array and the reference's result are one function of the four
  arguments: entry (r, n) of both is max(sum over k of adj(r, k) · (sum over l of x(k, l) · W(l, n)) + b(n), 0).
  The kernel computes the inner sums once into its scratch and the outer sums a band of 400 rows at a time; the
  reference computes both products whole. Neither side regroups a sum or moves a factor, so nothing here needs the
  inputs to be finite.
-/
import proofs.«167623_g47150150975849_cont_8to1_c_844_13_alg».proof.Proof.Blocks
import proofs.«167623_g47150150975849_cont_8to1_c_844_13_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.KernelIdeal.Bridge

open Cert.KernelIdeal Cert.KernelIdeal.Gen Cert.KernelIdeal.Body
open Idealize.ShloMosaic Idealize.ShloMosaic.TcCoe Idealize.SL.Sem Idealize.ShloMosaic.ValueIdx

/-! ## The two matrix products as sums -/

theorem rowsProd_l0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem rowsProd_r1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The matrix product into a zero accumulator, at an entry: the sum over the contracted axis. -/
theorem rowsProd_apply (a : FVec Ideal S400x10000 .f32) (s : FVec Ideal S10000x128 .f32) (i : S400x128.Idx) :
    FloatOps.matmul dot_S400x10000_S10000x128_S400x128_1_0_0_1_n_n none a s (constant S400x128 .f32 0x00000000#32) i
      = ∑ k : Fin 10000, a (ix2 (i 0) k) * s (ix2 k (i 1)) := by
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx i ((ValueIdx.contrEquiv1 dot_S400x10000_S10000x128_S400x128_1_0_0_1_n_n 10000 rfl rfl).symm k) = ix2 (i 0) k := funext fun a => Fin.ext (by
    match a with
    | ⟨0, _⟩ => exact rowsProd_l0 _ _
    | ⟨1, _⟩ => exact (dot_S400x10000_S10000x128_S400x128_1_0_0_1_n_n.lhsIdx_val_of_single rfl i _).trans hk)
  have er : dot_S400x10000_S10000x128_S400x128_1_0_0_1_n_n.rhsIdx i ((ValueIdx.contrEquiv1 dot_S400x10000_S10000x128_S400x128_1_0_0_1_n_n 10000 rfl rfl).symm k) = ix2 k (i 1) := funext fun a => Fin.ext (by
    match a with
    | ⟨0, _⟩ => exact (dot_S400x10000_S10000x128_S400x128_1_0_0_1_n_n.rhsIdx_val_of_single rfl i _).trans hk
    | ⟨1, _⟩ => exact rowsProd_r1 _ _)
  exact congrArg₂ (· * ·) (congrArg a el) (congrArg s er)

theorem supportProd_l0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem supportProd_r1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The matrix product into a zero accumulator, at an entry: the sum over the contracted axis. -/
theorem supportProd_apply (a : FVec Ideal S10000x128 .f32) (s : FVec Ideal S128x128 .f32) (i : S10000x128.Idx) :
    FloatOps.matmul dot_S10000x128_S128x128_S10000x128_1_0_0_1_n_n none a s (constant S10000x128 .f32 0x00000000#32) i
      = ∑ k : Fin 128, a (ix2 (i 0) k) * s (ix2 k (i 1)) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = ix2 (i 0) k := funext fun a => Fin.ext (by
    match a with
    | ⟨0, _⟩ => exact supportProd_l0 _ _
    | ⟨1, _⟩ => exact (dot_S10000x128_S128x128_S10000x128_1_0_0_1_n_n.lhsIdx_val_of_single rfl i _).trans hk)
  have er : dot_S10000x128_S128x128_S10000x128_1_0_0_1_n_n.rhsIdx i ((ValueIdx.contrEquiv1 dot_S10000x128_S128x128_S10000x128_1_0_0_1_n_n 128 rfl rfl).symm k) = ix2 k (i 1) := funext fun a => Fin.ext (by
    match a with
    | ⟨0, _⟩ => exact (dot_S10000x128_S128x128_S10000x128_1_0_0_1_n_n.rhsIdx_val_of_single rfl i _).trans hk
    | ⟨1, _⟩ => exact supportProd_r1 _ _)
  exact congrArg₂ (· * ·) (congrArg a el) (congrArg s er)

/-! ## The two payloads at an entry -/

/-- The scratch's contents at an entry: one inner sum. -/
theorem support_apply (x : FVec Ideal S10000x128 .f32) (W : FVec Ideal S128x128 .f32) (i : S10000x128.Idx) :
    k0_pay1 (F := Ideal) x W i = ∑ l : Fin 128, x (ix2 (i 0) l) * W (ix2 l (i 1)) := by
  unfold k0_pay1
  show shapeCast S10000x128 (FloatOps.matmul dot_S10000x128_S128x128_S10000x128_1_0_0_1_n_n none x W (constant S10000x128 .f32 0x00000000#32)) shapeCasts_S10000x128_S10000x128 i = _
  rw [shapeCast_self, supportProd_apply]

/-- A band's entry: the outer sum over the scratch, plus the bias of its column, clamped below at zero. -/
theorem band_apply (a : FVec Ideal S400x10000 .f32) (s : FVec Ideal S10000x128 .f32) (b2 : FVec Ideal S1x128 .f32) (y : S400x128.Idx) :
    k0_pay2 (F := Ideal) a s b2 y
      = max ((∑ k : Fin 10000, a (ix2 (y 0) k) * s (ix2 k (y 1))) + b2 (ix2 (0 : Fin 1) (y 1))) (Ideal.ofBits .f32 0x00000000#32) := by
  unfold k0_pay2
  show max (FloatOps.matmul dot_S400x10000_S10000x128_S400x128_1_0_0_1_n_n none a s (constant S400x128 .f32 0x00000000#32) y
        + broadcastTo S400x128 (shapeCast S1x128 b2 shapeCasts_S1x128_S1x128) broadcasts_S1x128_S400x128 y)
      (Ideal.ofBits .f32 0x00000000#32) = _
  rw [rowsProd_apply, shapeCast_self,
    broadcastTo_apply b2 broadcasts_S1x128_S400x128 y (ix2 (0 : Fin 1) (y 1)) (fun a => match a with
      | ⟨0, _⟩ => by show (0 : ℕ) = if (1 : ℕ) = 1 then 0 else _; rw [if_pos rfl]
      | ⟨1, _⟩ => by show (y 1).val = if (128 : ℕ) = 1 then 0 else _; rw [if_neg (by decide)]; rfl)]

/-! ## The kernel's array is the reference's result -/

open Cert.ReferenceIdeal.Read in
theorem final_is_reference (m : (ℓ : Loc nD τ sig) → Buf (Elt Ideal) ℓ) (c : Dev nD) :
    finalArr (F := Ideal) m c
      = Cert.ReferenceIdeal.Read.val_main_v5 (F := Ideal) (m ((c : Thread nD τ).loc main_arg0)) (m ((c : Thread nD τ).loc main_arg1))
          (m ((c : Thread nD τ).loc main_arg2)) (m ((c : Thread nD τ).loc main_arg3)) := by
  funext j
  rw [val_main_v5_apply, val_main_v4_apply, val_main_v1_apply, val_main_v3_apply, val_main_v2_apply,
    val_main_call0_v0_apply, val_main_call0_cst_apply]
  simp only [val_main_v0_apply]
  unfold finalArr band support
  rw [blk0_eq, blk1_eq, blk2_eq]
  refine (band_apply _ _ _ _).trans ?_
  have hb := pointOf_band j
  refine congrArg₂ max (congrArg₂ (· + ·) (Finset.sum_congr rfl fun k _ => ?_) ?_) rfl
  · rw [blk3_apply m c (pointOf j) _ (lidx_main_v1 j k)
        (by show (j 0).val = 400 * (pointOf j).val + ((j 0).val - 400 * (pointOf j).val); omega) rfl,
      support_apply]
    refine congrArg₂ (· * ·) rfl (Finset.sum_congr rfl fun l _ => ?_)
    refine congrArg₂ (· * ·) (congrArg _ (funext fun a => Fin.ext (by
      match a with
      | ⟨0, _⟩ => rfl
      | ⟨1, _⟩ => rfl))) (congrArg _ (funext fun a => Fin.ext (by
      match a with
      | ⟨0, _⟩ => rfl
      | ⟨1, _⟩ => rfl)))
  · exact shapeCast_apply _ shapeCasts_S128_S1x128 _ (idx_main_v2 (idx_main_v3 j)) (by
      rw [Shape.rowMajor_val_one, Shape.rowMajor_val_two]
      show (j 1).val = 0 * 128 + (j 1).val
      omega)

end Cert.KernelIdeal.Bridge

end
-- ==== Proof.lean ====
/-
  One graph-convolution layer, relu(adj · (x · W) + b), over 10000 nodes and 128 features, computed by a kernel
  that streams the adjacency in 25 blocks of 400 rows, against the same expression computed whole.

  The kernel keeps x · W in a scratch buffer, filled at the first grid point and only read afterwards, and writes
  the result through one staging buffer that every grid point visits: point t overwrites rows 400 t … 400 t + 399
  with max(block t of adj · scratch + b, 0) and leaves the other rows as it found them; the buffer is copied to
  the result array once, after the last point. So the proof carries two facts from point to point — what the
  scratch holds, and that every row below 400 (t + 1) of the staging buffer is already final — and reads the
  result array off the single write-back.

  Over the extended reals both programs give, at entry (r, n),
      max( sum over k of adj(r, k) · ( sum over l of x(k, l) · W(l, n) ) + b(n), 0 ),
  with the sums grouped the same way on both sides, so the two results agree for all inputs, finite or not.
  The kernel's text is read unchanged at the extended reals: the idealization rewrote nothing.
-/
import proofs.«167623_g47150150975849_cont_8to1_c_844_13_alg».proof.Defs
import proofs.«167623_g47150150975849_cont_8to1_c_844_13_alg».proof.Proof.Gen.Kernel
import proofs.«167623_g47150150975849_cont_8to1_c_844_13_alg».proof.Proof.Gen.KernelIdeal
import proofs.«167623_g47150150975849_cont_8to1_c_844_13_alg».proof.Proof.Gen.ReferenceIdeal
import proofs.«167623_g47150150975849_cont_8to1_c_844_13_alg».proof.Proof.Gen.Pre_finite_inputs
import proofs.«167623_g47150150975849_cont_8to1_c_844_13_alg».proof.Proof.Gen.ReferenceIdeal.Run
import proofs.«167623_g47150150975849_cont_8to1_c_844_13_alg».proof.Proof.Gen.ReferenceIdeal.Read
import proofs.«167623_g47150150975849_cont_8to1_c_844_13_alg».proof.Proof.KData
import proofs.«167623_g47150150975849_cont_8to1_c_844_13_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : @Cert.frame_Kernel Cert.Kernel.Gen.facts Cert.Pre_finite_inputs.Gen.facts :=
  fun m ρ _ => Cert.Kernel.Body.frame m ρ

/-- So does the kernel read at the extended reals. -/
theorem frame_kernel_ideal : @Cert.frame_KernelIdeal Cert.KernelIdeal.Gen.facts Cert.Pre_finite_inputs.Gen.facts :=
  fun m ρ _ => Cert.KernelIdeal.Body.frame m ρ

/-- The reference is a straight line of host operations: its run, the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the four arguments, both programs end with the same result array. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Body.finalArr (F := Ideal) m c, Cert.KernelIdeal.Body.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2.1, (hagree c).2.2.1, (hagree c).2.2.2]
  exact (Cert.KernelIdeal.Bridge.final_is_reference m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
